-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x262144 : Shape := ⟨2, ![1, 262144]⟩
abbrev S256 : Shape := ⟨1, ![256]⟩
abbrev S128 : Shape := ⟨1, ![128]⟩
abbrev S4096 : Shape := ⟨1, ![4096]⟩
abbrev S256x262144 : Shape := ⟨2, ![256, 262144]⟩
abbrev S128x256 : Shape := ⟨2, ![128, 256]⟩
abbrev S4096x128 : Shape := ⟨2, ![4096, 128]⟩
abbrev S_ : Shape := ⟨0, ![]⟩

class Facts : Prop where
  bcast_S_S1x262144 : S_.BroadcastsInDim S1x262144 (![] : Fin 0 → Fin S1x262144.rank)
  reducesTo_S1x262144_S_d0_1 : S1x262144.ReducesTo [0, 1] S_
  h_S_ : 0 < S_.numel
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_
  bcast_S_S4096 : S_.BroadcastsInDim S4096 (![] : Fin 0 → Fin S4096.rank)
  reducesTo_S4096_S_d0 : S4096.ReducesTo [0] S_
  bcast_S_S256x262144 : S_.BroadcastsInDim S256x262144 (![] : Fin 0 → Fin S256x262144.rank)
  reducesTo_S256x262144_S_d0_1 : S256x262144.ReducesTo [0, 1] S_
  bcast_S_S128x256 : S_.BroadcastsInDim S128x256 (![] : Fin 0 → Fin S128x256.rank)
  reducesTo_S128x256_S_d0_1 : S128x256.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn_part3 {F : FTy → Type} [FloatOps F] (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  main_v53

def fn_part2 {F : FTy → Type} [FloatOps F] (main_arg7 : FVec F S128x256 .f32) (main_arg8 : FVec F S128 .f32) (main_arg9 : FVec F S4096x128 .f32) (main_arg10 : FVec F S4096 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S4096x128 .f32 := Host.absf main_arg9
  let main_cst_16 : FVec F S_ .f32 := constant S_ .f32 0x7F800000#32
  let main_v45 : FVec F S4096x128 .f32 := broadcastInDim S4096x128 ![] bcast_S_S4096x128 main_cst_16
  let main_v46 : IVec S4096x128 1 := cmpf .olt main_v44 main_v45
  let main_c_17 : IVec S_ 1 := constantI S_ 1 1#1
  let main_v47 : IVec S_ 1 := (fun x v => Host.reduce IntOp.andi x v reducesTo_S4096x128_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_v48 main_v49 main_v50

def fn_part1 {F : FTy → Type} [FloatOps F] (main_arg4 : FVec F S4096 .f32) (main_arg5 : FVec F S256x262144 .f32) (main_arg6 : FVec F S256 .f32) (main_arg7 : FVec F S128x256 .f32) (main_arg8 : FVec F S128 .f32) (main_arg9 : FVec F S4096x128 .f32) (main_arg10 : FVec F S4096 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S256x262144 .f32 := Host.absf main_arg5
  let main_cst_8 : FVec F S_ .f32 := constant S_ .f32 0x7F800000#32
  let main_v25 : FVec F S256x262144 .f32 := broadcastInDim S256x262144 ![] bcast_S_S256x262144 main_cst_8
  let main_v26 : IVec S256x262144 1 := cmpf .olt main_v24 main_v25
  let main_c_9 : IVec S_ 1 := constantI S_ 1 1#1
  let main_v27 : IVec S_ 1 := (fun x v => Host.reduce IntOp.andi x v reducesTo_S256x262144_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x262144 .f32) (main_arg1 : FVec F S1x262144 .f32) (main_arg2 : FVec F S256 .f32) (main_arg3 : FVec F S128 .f32) (main_arg4 : FVec F S4096 .f32) (main_arg5 : FVec F S256x262144 .f32) (main_arg6 : FVec F S256 .f32) (main_arg7 : FVec F S128x256 .f32) (main_arg8 : FVec F S128 .f32) (main_arg9 : FVec F S4096x128 .f32) (main_arg10 : FVec F S4096 .f32) : IVec S_ 1 :=
  let main_v0 : FVec F S1x262144 .f32 := Host.absf main_arg0
  let main_cst : FVec F S_ .f32 := constant S_ .f32 0x7F800000#32
  let main_v1 : FVec F S1x262144 .f32 := broadcastInDim S1x262144 ![] bcast_S_S1x262144 main_cst
  let main_v2 : IVec S1x262144 1 := cmpf .olt main_v0 main_v1
  let main_c : IVec S_ 1 := constantI S_ 1 1#1
  let main_v3 : IVec S_ 1 := (fun x v => Host.reduce IntOp.andi x v reducesTo_S1x262144_S_d0_1 h_S_) main_v2 main_c
  let main_v4 : FVec F S1x262144 .f32 := Host.absf main_arg1
  let main_cst_0 : FVec F S_ .f32 := constant S_ .f32 0x7F800000#32
  let main_v5 : FVec F S1x262144 .f32 := broadcastInDim S1x262144 ![] bcast_S_S1x262144 main_cst_0
  let main_v6 : IVec S1x262144 1 := cmpf .olt main_v4 main_v5
  let main_c_1 : IVec S_ 1 := constantI S_ 1 1#1
  let main_v7 : IVec S_ 1 := (fun x v => Host.reduce IntOp.andi x v reducesTo_S1x262144_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S1x262144 : Shape := ⟨2, ![1, 262144]⟩
abbrev S256 : Shape := ⟨1, ![256]⟩
abbrev S128 : Shape := ⟨1, ![128]⟩
abbrev S4096 : Shape := ⟨1, ![4096]⟩
abbrev S256x262144 : Shape := ⟨2, ![256, 262144]⟩
abbrev S128x256 : Shape := ⟨2, ![128, 256]⟩
abbrev S4096x128 : Shape := ⟨2, ![4096, 128]⟩
abbrev S1x4096 : Shape := ⟨2, ![1, 4096]⟩

abbrev nBuf : Space → Nat
  | .hbm => 13
  | .vmem => 2
  | .smem => 0
  | _ => 0

abbrev bufTy : (tb : Table) → Fin (tcTables nBuf tb) → BufTy
  | .hbm, ⟨0, _⟩ => ⟨S1x262144, .f32⟩
  | .hbm, ⟨1, _⟩ => ⟨S1x262144, .f32⟩
  | .hbm, ⟨2, _⟩ => ⟨S256, .f32⟩
  | .hbm, ⟨3, _⟩ => ⟨S128, .f32⟩
  | .hbm, ⟨4, _⟩ => ⟨S4096, .f32⟩
  | .hbm, ⟨5, _⟩ => ⟨S256x262144, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S4096x128, .f32⟩
  | .hbm, ⟨10, _⟩ => ⟨S4096, .f32⟩
  | .hbm, ⟨11, _⟩ => ⟨S1x4096, .f32⟩
  | .hbm, ⟨12, _⟩ => ⟨S1x4096, .f32⟩
  | .local _ .vmem, ⟨0, _⟩ => ⟨S1x4096, .f32⟩
  | .local _ .vmem, ⟨1, _⟩ => ⟨S1x4096, .f32⟩
  | _, _ => ⟨S1x262144, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)

variable [Facts₀]

abbrev win0_0 : Pipeline.Window sig grid0 :=
  Pipeline.Window.ofSpec (Memref.whole main_v0) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1x262144 : Shape := ⟨2, ![1, 262144]⟩
abbrev S256 : Shape := ⟨1, ![256]⟩
abbrev S128 : Shape := ⟨1, ![128]⟩
abbrev S4096 : Shape := ⟨1, ![4096]⟩
abbrev S256x262144 : Shape := ⟨2, ![256, 262144]⟩
abbrev S128x256 : Shape := ⟨2, ![128, 256]⟩
abbrev S4096x128 : Shape := ⟨2, ![4096, 128]⟩
abbrev S262144x256 : Shape := ⟨2, ![262144, 256]⟩
abbrev S1x256 : Shape := ⟨2, ![1, 256]⟩
abbrev S_ : Shape := ⟨0, ![]⟩
abbrev S256x128 : Shape := ⟨2, ![256, 128]⟩
abbrev S1x128 : Shape := ⟨2, ![1, 128]⟩
abbrev S128x4096 : Shape := ⟨2, ![128, 4096]⟩
abbrev S1x4096 : Shape := ⟨2, ![1, 4096]⟩

abbrev nBuf : Space → Nat
  | .hbm => 75
  | .vmem => 0
  | .smem => 0
  | _ => 0

abbrev bufTy : (tb : Table) → Fin (tcTables nBuf tb) → BufTy
  | .hbm, ⟨0, _⟩ => ⟨S1x262144, .f32⟩
  | .hbm, ⟨1, _⟩ => ⟨S1x262144, .f32⟩
  | .hbm, ⟨2, _⟩ => ⟨S256, .f32⟩
  | .hbm, ⟨3, _⟩ => ⟨S128, .f32⟩
  | .hbm, ⟨4, _⟩ => ⟨S4096, .f32⟩
  | .hbm, ⟨5, _⟩ => ⟨S256x262144, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S4096x128, .f32⟩
  | .hbm, ⟨10, _⟩ => ⟨S4096, .f32⟩
  | .hbm, ⟨11, _⟩ => ⟨S1x262144, .f32⟩
  | .hbm, ⟨12, _⟩ => ⟨S262144x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S_, .f32⟩
  | .hbm, ⟨17, _⟩ => ⟨S256, .f32⟩
  | .hbm, ⟨18, _⟩ => ⟨S256, .i1⟩
  | .hbm, ⟨19, _⟩ => ⟨S_, .f32⟩
  | .hbm, ⟨20, _⟩ => ⟨S256, .f32⟩
  | .hbm, ⟨21, _⟩ => ⟨S256, .i1⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S1x256, .f32⟩
  | .hbm, ⟨33, _⟩ => ⟨S256x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S128, .f32⟩
  | .hbm, ⟨39, _⟩ => ⟨S128, .i1⟩
  | .hbm, ⟨40, _⟩ => ⟨S_, .f32⟩
  | .hbm, ⟨41, _⟩ => ⟨S128, .f32⟩
  | .hbm, ⟨42, _⟩ => ⟨S128, .i1⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S_, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S128x4096, .f32⟩
  | .hbm, ⟨55, _⟩ => ⟨S1x4096, .f32⟩
  | .hbm, ⟨56, _⟩ => ⟨S1x4096, .f32⟩
  | .hbm, ⟨57, _⟩ => ⟨S1x4096, .f32⟩
  | .hbm, ⟨58, _⟩ => ⟨S_, .f32⟩
  | .hbm, ⟨59, _⟩ => ⟨S4096, .f32⟩
  | .hbm, ⟨60, _⟩ => ⟨S4096, .i1⟩
  | .hbm, ⟨61, _⟩ => ⟨S_, .f32⟩
  | .hbm, ⟨62, _⟩ => ⟨S4096, .f32⟩
  | .hbm, ⟨63, _⟩ => ⟨S4096, .i1⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S_, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S1x4096, .f32⟩
  | _, _ => ⟨S1x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v9 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_cst_5 : Ref sig .tc := ⟨.hbm, 40, rfl⟩
abbrev main_v18 : Ref sig .tc := ⟨.hbm, 41, rfl⟩
abbrev main_v19 : Ref sig .tc := ⟨.hbm, 42, rfl⟩
abbrev main_cst_6 : Ref sig .tc := ⟨.hbm, 43, rfl⟩
abbrev main_cst_7 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v20 : Ref sig .tc := ⟨.hbm, 48, rfl⟩
abbrev main_cst_8 : Ref sig .tc := ⟨.hbm, 49, rfl⟩
abbrev main_call3_v0 : Ref sig .tc := ⟨.hbm, 50, rfl⟩
abbrev main_call3_v1 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_9 : Ref sig .tc := ⟨.hbm, 58, rfl⟩
abbrev main_v27 : Ref sig .tc := ⟨.hbm, 59, rfl⟩
abbrev main_v28 : Ref sig .tc := ⟨.hbm, 60, rfl⟩
abbrev main_cst_10 : Ref sig .tc := ⟨.hbm, 61, rfl⟩
abbrev main_v29 : Ref sig .tc := ⟨.hbm, 62, rfl⟩
abbrev main_v30 : Ref sig .tc := ⟨.hbm, 63, rfl⟩
abbrev main_cst_11 : Ref sig .tc := ⟨.hbm, 64, rfl⟩
abbrev main_cst_12 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v31 : Ref sig .tc := ⟨.hbm, 69, rfl⟩
abbrev main_cst_13 : Ref sig .tc := ⟨.hbm, 70, rfl⟩
abbrev main_call5_v0 : Ref sig .tc := ⟨.hbm, 71, rfl⟩
abbrev main_call5_v1 : Ref sig .tc := ⟨.hbm, 72, rfl⟩
abbrev main_v32 : Ref sig .tc := ⟨.hbm, 73, rfl⟩
abbrev main_v33 : Ref sig .tc := ⟨.hbm, 74, rfl⟩

abbrev nD : Nat := 1
abbrev τ : Topo := Topo.v7x

variable {F : FTy → Type} [FloatOps F]

class Facts₀ : Prop where
  transposes_S256x262144_S262144x256_1_0 : S256x262144.Transposes [1, 0] S262144x256
  bcast_S256_S1x256_1 : S256.BroadcastsInDim S1x256 (![1] : Fin 1 → Fin S1x256.rank)
  bcast_S_S256 : S_.BroadcastsInDim S256 (![] : Fin 0 → Fin S256.rank)
  transposes_S128x256_S256x128_1_0 : S128x256.Transposes [1, 0] S256x128
  bcast_S128_S1x128_1 : S128.BroadcastsInDim S1x128 (![1] : Fin 1 → Fin S1x128.rank)
  bcast_S_S128 : S_.BroadcastsInDim S128 (![] : Fin 0 → Fin S128.rank)
  transposes_S4096x128_S128x4096_1_0 : S4096x128.Transposes [1, 0] S128x4096
  bcast_S4096_S1x4096_1 : S4096.BroadcastsInDim S1x4096 (![1] : Fin 1 → Fin S1x4096.rank)
  bcast_S_S4096 : S_.BroadcastsInDim S4096 (![] : Fin 0 → Fin S4096.rank)
  dot_S1x262144_S262144x256_S1x256_1_0_0_1_n_n_wf : DotDims.WF S1x262144 S262144x256 S1x256 [1] [0] [0] [1] [] []
  dot_S1x256_S256x128_S1x128_1_0_0_1_n_n_wf : DotDims.WF S1x256 S256x128 S1x128 [1] [0] [0] [1] [] []
  dot_S1x128_S128x4096_S1x4096_1_0_0_1_n_n_wf : DotDims.WF S1x128 S128x4096 S1x4096 [1] [0] [0] [1] [] []

variable [Facts₀]

def dot_S1x262144_S262144x256_S1x256_1_0_0_1_n_n : DotDims S1x262144 S262144x256 S1x256 where
  lhsContracting := [1]
  rhsContracting := [0]
  lhsNonContracting := [0]
  rhsNonContracting := [1]
  lhsBatch := []
  rhsBatch := []
  wf := dot_S1x262144_S262144x256_S1x256_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x4096_S1x4096_1_0_0_1_n_n : DotDims S1x128 S128x4096 S1x4096 where
  lhsContracting := [1]
  rhsContracting := [0]
  lhsNonContracting := [0]
  rhsNonContracting := [1]
  lhsBatch := []
  rhsBatch := []
  wf := dot_S1x128_S128x4096_S1x4096_1_0_0_1_n_n_wf

class Facts : Prop extends Facts₀ where

variable [Facts]
-- ==== Proof.Fire.lean ====
/-
  The function both programs compute.

  A number `a` is FIRED against the threshold 15: the result is 0.05 when `a > 15`, otherwise -0.05 when `a < 15`,
  otherwise 0 (so 0 exactly at `a = 15`; the lower comparison is against +15, not -15). The kernel and the reference apply this to
  every entry of one vector of 4096 numbers and return the fired vector as the single row of a `[1, 4096]` array: column
  `q` of the row is the fired entry `q` of the vector. Nothing else of the eleven arguments reaches the result.

  The four numbers 15, 0.05, -0.05 and 0 are kept as the f32 words the two programs spell them with. The same word stands
  on both sides of the claim, so no word is ever evaluated, and the definitions below are read at any interpretation `F`
  of the floats — at the extended reals in particular, where the comparisons are the order of the extended reals.
-/
import Idealize.ShloMosaic.PureOps.Ideal
import Idealize.ShloMosaic.Lib.ValueIdx

noncomputable section

namespace Cert.Fire

open Idealize.ShloMosaic Idealize.ShloMosaic.ValueIdx

variable {F : FTy → Type} [FloatOps F]

/-- One number fired against the threshold 15 (word `0x41700000`): `0.05` (`0x3D4CCCCD`) strictly above it, else
    `-0.05` (`0xBD4CCCCD`) strictly below it, else `0`. -/
def fire (a : F .f32) : F .f32 :=
  Scalar.select (FloatOps.cmpf .ogt a (FloatOps.ofBits .f32 0x41700000#32)) (FloatOps.ofBits .f32 0x3D4CCCCD#32)
    (Scalar.select (FloatOps.cmpf .olt a (FloatOps.ofBits .f32 0x41700000#32)) (FloatOps.ofBits .f32 0xBD4CCCCD#32)
      (FloatOps.ofBits .f32 0x00000000#32))

/-- The entry of the vector `[4096]` that lies under index `i` of the one-row array `[1, 4096]`: its column. -/
abbrev under (i : (⟨2, ![1, 4096]⟩ : Shape).Idx) : (⟨1, ![4096]⟩ : Shape).Idx :=
  ix1 (⟨(i 1).val, (i 1).isLt⟩ : Fin 4096)

/-- The row-major position of an index of `[1, 4096]` is the position of the vector entry under it: the row
    coordinate is 0. This is what identifies a reshape of the vector to one row with "read the column". -/
theorem under_pos (i : (⟨2, ![1, 4096]⟩ : Shape).Idx) :
    ((⟨1, ![4096]⟩ : Shape).rowMajor (under i)).val = ((⟨2, ![1, 4096]⟩ : Shape).rowMajor i).val := by
  have h0 : (i 0).val < 1 := (i 0).isLt
  rw [Shape.rowMajor_val_one, Shape.rowMajor_val_two]
  show (i 1).val = (i 0).val * 4096 + (i 1).val
  omega

/-- THE RESULT: the vector fired entry by entry, laid out as one row. -/
def firedRow (a : (⟨1, ![4096]⟩ : Shape).Idx → F .f32) : (⟨2, ![1, 4096]⟩ : Shape).Idx → F .f32 :=
  fun i => fire (a (under i))

theorem firedRow_apply (a : (⟨1, ![4096]⟩ : Shape).Idx → F .f32) (i : (⟨2, ![1, 4096]⟩ : Shape).Idx) :
    firedRow a i = fire (a (under i)) := rfl

end Cert.Fire

end
-- ==== Proof.KernelFire.lean ====
/-
  The kernel's result array is the fired row.

  The host first re-lays the vector `ap3` (4096 numbers) as the one row of a `[1, 4096]` array: entry `q` of the vector
  becomes column `q` of the row. The kernel then runs at ONE grid point whose input block and output block are each the
  whole `[1, 4096]` array (block indices (0, 0), block extents the array's). Its body loads the block, fires every
  element — the re-layout inside the body is to the same shape, hence the identity — and stores the result over the
  whole output block. So:
  * the stored value at a block index is `fire` of the loaded element at that index (`stored_apply`);
  * the array the region finds, at an index, is the vector entry under it (`entry_apply`);
  * what the grid point writes back is the block of `firedRow ap3` it names (`writes_back`);
  * that one block covers every index of the output array (`covered`), so the array ends as `firedRow ap3` (`result_array`);
  * and the run of the whole program, re-posted with that array and with the eleven arguments unchanged (`run`): an
    argument is written by no host operation and staged by no window.
-/
import proofs.«158686_j35459249995779_2_alg».proof.Proof.Gen.KernelIdeal.Frame
import proofs.«158686_j35459249995779_2_alg».proof.Proof.Fire
import Idealize.ShloMosaic.Lib.Pipeline.Value
import Idealize.ShloMosaic.Lib.StableHlo.Run

noncomputable section

namespace Cert.KernelIdeal.KerFire

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-- The body's load and store go through the rectangle at offsets (0, 0) of the block's own extents: the whole block. -/
theorem zero_offsets : (![0, 0] : Fin 2 → Nat) = fun _ => 0 := funext fun a => by fin_cases a <;> rfl

/-! ## The body -/

/-- The value the body stores, at a block index `y`: the loaded element at `y`, fired. (The body's shape cast is from
    `[1, 4096]` to `[1, 4096]`: the identity; the comparisons, the broadcast constants and the two selects act element by
    element.) -/
theorem stored_apply (P0 : Vec F S1x4096 .f32) (y : S1x4096.Idx) : k0_pay1 P0 y = Cert.Fire.fire (P0 y) := by
  have e : shapeCast S1x4096 P0 Gen.shapeCasts_S1x4096_S1x4096 = P0 := shapeCast_self P0 _
  unfold k0_pay1
  rw [e]
  rfl

/-! ## The array the region finds -/

/-- When the region is entered, the input window's array is the host's re-layout of `ap3` as one row. -/
theorem entry_row (c : Dev nD) :
    (V m c main_v0 : S1x4096.Idx → Elt F .f32)
      = shapeCast S1x4096 (m ((c : Thread nD τ).loc main_arg4) : S4096.Idx → Elt F .f32) Gen.shapeCasts_S4096_S1x4096 := by
  dsimp only [Gen.V, Gen.hostOps0]
  after_results
  rfl

/-- At an index of the row it is the entry of `ap3` under that index: same row-major position. -/
theorem entry_apply (c : Dev nD) (i : S1x4096.Idx) :
    (V m c main_v0 : S1x4096.Idx → Elt F .f32) i
      = (m ((c : Thread nD τ).loc main_arg4) : S4096.Idx → Elt F .f32) (Cert.Fire.under i) := by
  rw [entry_row]
  exact shapeCast_apply _ _ i (Cert.Fire.under i) (Cert.Fire.under_pos i)

/-! ## The one grid point -/

/-- Decided over the grid (its one point): the input block's column index is 0, and so are both of the output block's
    indices — each block starts at the array's origin. -/
theorem block_indices : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input block at point `t`, at a block index `j`, is the entry of `ap3` under the array index the OUTPUT block
    gives `j`: both blocks put `j` at the same place of their arrays (offset 0 on each axis). -/
theorem input_block_apply (c : Dev nD) (t : Fin cfg0.N) (j : S1x4096.Idx) :
    (iblk m c 0 t : S1x4096.Idx → Elt F .f32) j
      = (m ((c : Thread nD τ).loc main_arg4) : S4096.Idx → Elt F .f32) (Cert.Fire.under (((cfg0.win 1).blk t).view.emb j)) := by
  obtain ⟨-, e1, -, e3⟩ := block_indices t
  unfold iblk
  rw [View.read_apply]
  show (V m c main_v0 : S1x4096.Idx → Elt F .f32) (((cfg0.win 0).blk t).view.emb j) = _
  rw [entry_apply]
  have same_entry : Cert.Fire.under (((cfg0.win 0).blk t).view.emb j) = Cert.Fire.under (((cfg0.win 1).blk t).view.emb j) := by
    funext a
    match a with
    | ⟨0, _⟩ =>
      apply Fin.ext
      show win0_0.index t (1 : Fin 2) * 4096 + 1 * (j 1).val = win0_1.index t (1 : Fin 2) * 4096 + 1 * (j 1).val
      rw [e1, e3]
  rw [same_entry]

/-- WHAT THE GRID POINT WRITES BACK is its block of the fired row of `ap3`. -/
theorem writes_back (c : Dev nD) (t : Fin cfg0.N) :
    (dats m 0 c).flushed 1 t
      = ((cfg0.win 1).blk t).view.read (Elt F) (Cert.Fire.firedRow (F := F) (m ((c : Thread nD τ).loc main_arg4))) := by
  show (cfg0.win 1).cut (grid0.coords t) ((dats m 0 c).after 1 t) = _
  rw [after0_1]
  unfold out0_1
  rw [View.canon_unit_zero zero_offsets]
  simp only [View.ld_unit_zero (S := S1x4096) zero_offsets]
  funext j
  show k0_pay1 (iblk m c 0 t) j = Cert.Fire.firedRow (F := F) (m ((c : Thread nD τ).loc main_arg4)) (((cfg0.win 1).blk t).view.emb j)
  rw [stored_apply, Cert.Fire.firedRow_apply]
  exact congrArg Cert.Fire.fire (input_block_apply m c t j)

/-! ## From the block to the array -/

/-- An index of the output array is in point `t`'s block iff each coordinate is in the block's range on its axis. -/
theorem mem_block (t : Fin cfg0.N) (i : S1x4096.Idx) :
    i ∈ ((cfg0.win 1).blk t).view.set ↔ ∀ a : Fin 2, win0_1.index t a * S1x4096.size a ≤ (i a).val ∧ (i a).val < win0_1.index t a * S1x4096.size a + S1x4096.size a := by
  show i ∈ ((View.whole main_v1).slice (win0_1.rect t)).set ↔ _
  rw [View.set_slice_whole, Rect.mem_set_unit]
  exact Iff.rfl

/-- Every index of the output array is in the block of the grid's one point, which writes back. -/
theorem covered (i : S1x4096.Idx) : ∃ t : Fin cfg0.N, (cfg0.win 1).flush t = true ∧ i ∈ ((cfg0.win 1).blk t).view.set := by
  obtain ⟨-, -, e2, e3⟩ := block_indices t0_0
  have h0 : (i 0).val < 1 := (i 0).isLt
  have h1 : (i 1).val < 4096 := (i 1).isLt
  refine ⟨t0_0, flush0_1 t0_0, ?_⟩
  rw [mem_block]
  intro a
  match a with
  | ⟨0, _⟩ => show win0_1.index t0_0 (0 : Fin 2) * 1 ≤ (i 0).val ∧ (i 0).val < win0_1.index t0_0 (0 : Fin 2) * 1 + 1; omega
  | ⟨1, _⟩ => show win0_1.index t0_0 (1 : Fin 2) * 4096 ≤ (i 1).val ∧ (i 1).val < win0_1.index t0_0 (1 : Fin 2) * 4096 + 4096; omega

/-- THE OUTPUT ARRAY after the run is the fired row of `ap3`. -/
theorem result_array (c : Dev nD) :
    (dats m 0 c).arrAt 1 cfg0.N = Cert.Fire.firedRow (F := F) (m ((c : Thread nD τ).loc main_arg4)) :=
  (dats m 0 c).arrAt_eq_of_cover 1 (Cert.Fire.firedRow (F := F) (m ((c : Thread nD τ).loc main_arg4)))
    (fun t _ => writes_back m c t) covered

/-! ## The run, read -/

/-- Every weakly fair execution of the program terminates with the result array at the fired row of `ap3` and the eleven
    arguments as launched. -/
theorem run : θ_run defs (onTc (τ := τ) (main (F := F))) ⟨m, fun _ => 0, ρ⟩ fun r => ∀ c : Dev nD,
      r.2.mem ((c : Thread nD τ).loc main_v1) = Cert.Fire.firedRow (F := F) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 1).trans (result_array m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.KerFire

end
-- ==== Proof.ReferenceFire.lean ====
/-
  The reference's result is the fired row.

  The reference compares the vector `ap3` with a broadcast 15 twice (`>` and `<`), selects between broadcast constants
  twice (the inner select gives -0.05 or 0, the outer one 0.05 or the inner result), and lays the fired vector out as one
  row by a broadcast along a new leading axis of extent 1. Read at an index `i` of the row, every one of these
  operations reads its operands at the vector entry under `i` (a broadcast scalar reads the scalar), so the element is
  `fire` of that entry: `Cert.Fire.firedRow`. The matrix products the reference also computes never reach this result.
-/
import proofs.«158686_j35459249995779_2_alg».proof.Proof.Gen.ReferenceIdeal.Read
import proofs.«158686_j35459249995779_2_alg».proof.Proof.Fire

noncomputable section

namespace Cert.ReferenceIdeal.RefFire

open Cert.ReferenceIdeal Cert.ReferenceIdeal.Read Idealize.ShloMosaic Idealize.ShloMosaic.ValueIdx

variable {F : FTy → Type} [FloatOps F]

/-- The last broadcast (the vector as the one row) reads the vector at the column of the row index: the entry under it. -/
theorem idx_under (i : S1x4096.Idx) : idx_main_v33 i = Cert.Fire.under i := by
  funext a; match a with | ⟨0, _⟩ => rfl

/-- The reference's last stage, as a function of `ap3`, is the fired row of `ap3`. -/
theorem result_eq (x4 : (⟨S4096, .f32⟩ : BufTy).Contents (Elt F)) :
    val_main_v33 (F := F) x4 = Cert.Fire.firedRow (F := F) x4 := by
  funext i
  rw [val_main_v33_apply, val_main_v32_apply, val_main_v28_apply, val_main_v27_apply, val_main_cst_9_apply,
    val_main_call5_v1_apply, val_main_call5_v0_apply, val_main_cst_13_apply, val_main_v31_apply, val_main_v30_apply,
    val_main_v29_apply, val_main_cst_10_apply, val_main_call4_v1_apply, val_main_call4_v0_apply, val_main_cst_11_apply,
    val_main_call4_v2_apply, val_main_cst_12_apply, idx_under]
  rfl

end Cert.ReferenceIdeal.RefFire

end
-- ==== Proof.lean ====
/-
  A two-level threshold of one vector: the kernel against its reference, over the extended reals.

  THE FUNCTION. A number `a` is fired against the threshold 15: 0.05 if `a > 15`, else -0.05 if `a < 15`, else 0
  (`Cert.Fire.fire`; both comparisons are against +15, so exactly at 15 the value is 0). Of the eleven arguments only the
  vector `ap3` of 4096 numbers reaches the result, which is the `[1, 4096]` array whose column `q` is `fire (ap3 q)`
  (`Cert.Fire.firedRow`).

  THE KERNEL re-lays `ap3` as one row on the host and launches a one-point grid whose input and output blocks are the
  whole row; the body fires the loaded block element by element and stores it. Its result array after the run is
  `firedRow ap3` (Proof/KernelFire.lean, read off the frame run of the kernel).

  THE REFERENCE compares `ap3` with a broadcast 15 both ways, selects twice between broadcast constants and broadcasts the
  fired vector along a new leading axis of extent 1; it also forms three matrix products from the other arguments, which
  it then drops. Its result, read index by index, is `firedRow ap3` as well (Proof/ReferenceFire.lean, over the
  reference's run read one operation at a time).

  So the two results are ONE function of `ap3`, spelt with the same four f32 words (15, 0.05, -0.05, 0) on both sides: no
  word is evaluated, no law of arithmetic is used, and the finiteness of the inputs is never needed — the equality
  holds at every extended real, the infinities included. The idealization rewrote no operation of the kernel, so the
  `preserves` claim is `True`. Each program's frame (it terminates, nothing faults, the arguments end unchanged) is
  its generated frame run; the reference's is its generated run with the result dropped.
-/
import proofs.«158686_j35459249995779_2_alg».proof.Defs
import proofs.«158686_j35459249995779_2_alg».proof.Proof.Gen.Kernel
import proofs.«158686_j35459249995779_2_alg».proof.Proof.Gen.Kernel.Skeleton
import proofs.«158686_j35459249995779_2_alg».proof.Proof.Gen.Kernel.Launch
import proofs.«158686_j35459249995779_2_alg».proof.Proof.Gen.Kernel.Points
import proofs.«158686_j35459249995779_2_alg».proof.Proof.Gen.Kernel.Frame
import proofs.«158686_j35459249995779_2_alg».proof.Proof.Gen.KernelIdeal
import proofs.«158686_j35459249995779_2_alg».proof.Proof.Gen.KernelIdeal.Skeleton
import proofs.«158686_j35459249995779_2_alg».proof.Proof.Gen.KernelIdeal.Launch
import proofs.«158686_j35459249995779_2_alg».proof.Proof.Gen.KernelIdeal.Points
import proofs.«158686_j35459249995779_2_alg».proof.Proof.Gen.KernelIdeal.Frame
import proofs.«158686_j35459249995779_2_alg».proof.Proof.Gen.ReferenceIdeal
import proofs.«158686_j35459249995779_2_alg».proof.Proof.Gen.Pre_finite_inputs
import proofs.«158686_j35459249995779_2_alg».proof.Proof.Gen.ReferenceIdeal.Run
import proofs.«158686_j35459249995779_2_alg».proof.Proof.Gen.ReferenceIdeal.Read
import proofs.«158686_j35459249995779_2_alg».proof.Proof.Fire
import proofs.«158686_j35459249995779_2_alg».proof.Proof.KernelFire
import proofs.«158686_j35459249995779_2_alg».proof.Proof.ReferenceFire
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories that agree on the arguments both programs end with the fired row of the SAME `ap3`: the kernel's run
    (`KerFire.run`) posts it directly; the reference's run posts its composed term, which is its last stage
    (`val_main_v33_eq`), which is the fired row of its own `ap3` (`RefFire.result_eq`), which is the kernel's `ap3` by
    the agreement on the fifth argument. -/
theorem algebraic : Cert.algebraic_KernelIdeal_ReferenceIdeal := by
  intro m ρ m' ρ' _ hagree
  refine ⟨fun c => Cert.Fire.firedRow (F := Ideal) (m ((c.tc : Thread Cert.KernelIdeal.nD Cert.KernelIdeal.τ).loc Cert.KernelIdeal.main_arg4)),
    Cert.KernelIdeal.KerFire.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefFire.result_eq, (hagree c).2.2.2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
